-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128x128 .f32) (main_arg9 : FVec F S128 .f32) (main_arg10 : FVec F S128x128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x128 .f32) (main_arg9 : FVec F S128 .f32) (main_arg10 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S5000x128 : Shape := ⟨2, ![5000, 128]⟩

abbrev nBuf : Space → Nat
  | .hbm => 79
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x128, .f32⟩
  | .hbm, ⟨37, _⟩ => ⟨S_, .f32⟩
  | .hbm, ⟨38, _⟩ => ⟨S50000x128, .f32⟩
  | .hbm, ⟨39, _⟩ => ⟨S800000x1, .i32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S1x128, .f32⟩
  | .hbm, ⟨44, _⟩ => ⟨S50000x128, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x128, .f32⟩
  | .hbm, ⟨54, _⟩ => ⟨S_, .f32⟩
  | .hbm, ⟨55, _⟩ => ⟨S50000x128, .f32⟩
  | .hbm, ⟨56, _⟩ => ⟨S800000x1, .i32⟩
  | .hbm, ⟨57, _⟩ => ⟨S50000x128, .f32⟩
  | .hbm, ⟨58, _⟩ => ⟨S50000x128, .f32⟩
  | .hbm, ⟨59, _⟩ => ⟨S50000x128, .f32⟩
  | .hbm, ⟨60, _⟩ => ⟨S1x128, .f32⟩
  | .hbm, ⟨61, _⟩ => ⟨S50000x128, .f32⟩
  | .hbm, ⟨62, _⟩ => ⟨S_, .i32⟩
  | .hbm, ⟨63, _⟩ => ⟨S800000, .i32⟩
  | .hbm, ⟨64, _⟩ => ⟨S800000, .i1⟩
  | .hbm, ⟨65, _⟩ => ⟨S_, .i32⟩
  | .hbm, ⟨66, _⟩ => ⟨S800000, .i32⟩
  | .hbm, ⟨67, _⟩ => ⟨S800000, .i32⟩
  | .hbm, ⟨68, _⟩ => ⟨S800000, .i32⟩
  | .hbm, ⟨69, _⟩ => ⟨S800000x1, .i32⟩
  | .hbm, ⟨70, _⟩ => ⟨S800000x128, .f32⟩
  | .hbm, ⟨71, _⟩ => ⟨S_, .f32⟩
  | .hbm, ⟨72, _⟩ => ⟨S50000x128, .f32⟩
  | .hbm, ⟨73, _⟩ => ⟨S800000x1, .i32⟩
  | .hbm, ⟨74, _⟩ => ⟨S50000x128, .f32⟩
  | .hbm, ⟨75, _⟩ => ⟨S50000x128, .f32⟩
  | .hbm, ⟨76, _⟩ => ⟨S50000x128, .f32⟩
  | .hbm, ⟨77, _⟩ => ⟨S1x128, .f32⟩
  | .hbm, ⟨78, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S1x128, .f32⟩
  | .local _ .vmem, ⟨24, _⟩ => ⟨S128x128, .f32⟩
  | .local _ .vmem, ⟨25, _⟩ => ⟨S5000x128, .f32⟩
  | .local _ .vmem, ⟨26, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_c_8 : Ref sig .tc := ⟨.hbm, 62, rfl⟩
abbrev main_v41 : Ref sig .tc := ⟨.hbm, 63, rfl⟩
abbrev main_v42 : Ref sig .tc := ⟨.hbm, 64, rfl⟩
abbrev main_c_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_10 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v52) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v53) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v54) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 114
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S_, .f32⟩
  | .hbm, ⟨25, _⟩ => ⟨S50000x128, .f32⟩
  | .hbm, ⟨26, _⟩ => ⟨S800000x1, .i32⟩
  | .hbm, ⟨27, _⟩ => ⟨S50000x128, .f32⟩
  | .hbm, ⟨28, _⟩ => ⟨S_, .f32⟩
  | .hbm, ⟨29, _⟩ => ⟨S800000, .f32⟩
  | .hbm, ⟨30, _⟩ => ⟨S_, .f32⟩
  | .hbm, ⟨31, _⟩ => ⟨S50000, .f32⟩
  | .hbm, ⟨32, _⟩ => ⟨S800000x1, .i32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S1x128, .f32⟩
  | .hbm, ⟨42, _⟩ => ⟨S50000x128, .f32⟩
  | .hbm, ⟨43, _⟩ => ⟨S50000x128, .f32⟩
  | .hbm, ⟨44, _⟩ => ⟨S50000x128, .f32⟩
  | .hbm, ⟨45, _⟩ => ⟨S50000x128, .f32⟩
  | .hbm, ⟨46, _⟩ => ⟨S_, .f32⟩
  | .hbm, ⟨47, _⟩ => ⟨S50000x128, .f32⟩
  | .hbm, ⟨48, _⟩ => ⟨S50000x128, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x128, .f32⟩
  | .hbm, ⟨58, _⟩ => ⟨S_, .f32⟩
  | .hbm, ⟨59, _⟩ => ⟨S50000x128, .f32⟩
  | .hbm, ⟨60, _⟩ => ⟨S800000x1, .i32⟩
  | .hbm, ⟨61, _⟩ => ⟨S50000x128, .f32⟩
  | .hbm, ⟨62, _⟩ => ⟨S_, .f32⟩
  | .hbm, ⟨63, _⟩ => ⟨S800000, .f32⟩
  | .hbm, ⟨64, _⟩ => ⟨S_, .f32⟩
  | .hbm, ⟨65, _⟩ => ⟨S50000, .f32⟩
  | .hbm, ⟨66, _⟩ => ⟨S800000x1, .i32⟩
  | .hbm, ⟨67, _⟩ => ⟨S50000, .f32⟩
  | .hbm, ⟨68, _⟩ => ⟨S_, .f32⟩
  | .hbm, ⟨69, _⟩ => ⟨S50000, .f32⟩
  | .hbm, ⟨70, _⟩ => ⟨S50000, .f32⟩
  | .hbm, ⟨71, _⟩ => ⟨S50000x1, .f32⟩
  | .hbm, ⟨72, _⟩ => ⟨S50000x128, .f32⟩
  | .hbm, ⟨73, _⟩ => ⟨S50000x128, .f32⟩
  | .hbm, ⟨74, _⟩ => ⟨S50000x128, .f32⟩
  | .hbm, ⟨75, _⟩ => ⟨S1x128, .f32⟩
  | .hbm, ⟨76, _⟩ => ⟨S50000x128, .f32⟩
  | .hbm, ⟨77, _⟩ => ⟨S50000x128, .f32⟩
  | .hbm, ⟨78, _⟩ => ⟨S50000x128, .f32⟩
  | .hbm, ⟨79, _⟩ => ⟨S50000x128, .f32⟩
  | .hbm, ⟨80, _⟩ => ⟨S_, .f32⟩
  | .hbm, ⟨81, _⟩ => ⟨S50000x128, .f32⟩
  | .hbm, ⟨82, _⟩ => ⟨S50000x128, .f32⟩
  | .hbm, ⟨83, _⟩ => ⟨S_, .i32⟩
  | .hbm, ⟨84, _⟩ => ⟨S800000, .i32⟩
  | .hbm, ⟨85, _⟩ => ⟨S800000, .i1⟩
  | .hbm, ⟨86, _⟩ => ⟨S_, .i32⟩
  | .hbm, ⟨87, _⟩ => ⟨S800000, .i32⟩
  | .hbm, ⟨88, _⟩ => ⟨S800000, .i32⟩
  | .hbm, ⟨89, _⟩ => ⟨S800000, .i32⟩
  | .hbm, ⟨90, _⟩ => ⟨S800000x1, .i32⟩
  | .hbm, ⟨91, _⟩ => ⟨S800000x128, .f32⟩
  | .hbm, ⟨92, _⟩ => ⟨S_, .f32⟩
  | .hbm, ⟨93, _⟩ => ⟨S50000x128, .f32⟩
  | .hbm, ⟨94, _⟩ => ⟨S800000x1, .i32⟩
  | .hbm, ⟨95, _⟩ => ⟨S50000x128, .f32⟩
  | .hbm, ⟨96, _⟩ => ⟨S_, .f32⟩
  | .hbm, ⟨97, _⟩ => ⟨S800000, .f32⟩
  | .hbm, ⟨98, _⟩ => ⟨S_, .f32⟩
  | .hbm, ⟨99, _⟩ => ⟨S50000, .f32⟩
  | .hbm, ⟨100, _⟩ => ⟨S800000x1, .i32⟩
  | .hbm, ⟨101, _⟩ => ⟨S50000, .f32⟩
  | .hbm, ⟨102, _⟩ => ⟨S_, .f32⟩
  | .hbm, ⟨103, _⟩ => ⟨S50000, .f32⟩
  | .hbm, ⟨104, _⟩ => ⟨S50000, .f32⟩
  | .hbm, ⟨105, _⟩ => ⟨S50000x1, .f32⟩
  | .hbm, ⟨106, _⟩ => ⟨S50000x128, .f32⟩
  | .hbm, ⟨107, _⟩ => ⟨S50000x128, .f32⟩
  | .hbm, ⟨108, _⟩ => ⟨S50000x128, .f32⟩
  | .hbm, ⟨109, _⟩ => ⟨S1x128, .f32⟩
  | .hbm, ⟨110, _⟩ => ⟨S50000x128, .f32⟩
  | .hbm, ⟨111, _⟩ => ⟨S50000x128, .f32⟩
  | .hbm, ⟨112, _⟩ => ⟨S50000x128, .f32⟩
  | .hbm, ⟨113, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call0_cst : Ref sig .tc := ⟨.hbm, 46, rfl⟩
abbrev main_call0_v0 : Ref sig .tc := ⟨.hbm, 47, rfl⟩
abbrev main_v29 : Ref sig .tc := ⟨.hbm, 48, rfl⟩
abbrev main_c_4 : Ref sig .tc := ⟨.hbm, 49, rfl⟩
abbrev main_v30 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_9 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_call1_cst : Ref sig .tc := ⟨.hbm, 80, rfl⟩
abbrev main_call1_v0 : Ref sig .tc := ⟨.hbm, 81, rfl⟩
abbrev main_v55 : Ref sig .tc := ⟨.hbm, 82, rfl⟩
abbrev main_c_10 : Ref sig .tc := ⟨.hbm, 83, rfl⟩
abbrev main_v56 : Ref sig .tc := ⟨.hbm, 84, rfl⟩
abbrev main_v57 : Ref sig .tc := ⟨.hbm, 85, rfl⟩
abbrev main_c_11 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_12 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_13 : Ref sig .tc := ⟨.hbm, 96, rfl⟩
abbrev main_v66 : Ref sig .tc := ⟨.hbm, 97, rfl⟩
abbrev main_cst_14 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_15 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Dense.lean ====
/-
  The dense stage of one GraphSAGE layer, as a function of whole arrays, index by index.

  A layer takes the neighbour mean `mean` and the node features `h` (both 50000 × 128), two 128 × 128 weight
  matrices `Wl`, `Wr` and a bias row `b` (1 × 128), and produces, at node `r` and output feature `q`,

      (Σ_k mean[r,k] · Wl[k,q]) + (Σ_k h[r,k] · Wr[k,q]) + b[0,q].

  The first two layers clamp this below by zero. Only row `r` of `mean` and of `h` enters entry `(r, q)`, which
  is why the stage may be computed on any partition of the rows into blocks.
-/
import Idealize.ShloMosaic.PureOps.Ideal
import Idealize.ShloMosaic.Lib.ValueIdx

noncomputable section

namespace Cert.Sage

open Idealize.ShloMosaic Idealize.ShloMosaic.ValueIdx
open scoped BigOperators

/-- Node features: 50000 nodes, 128 features. -/
abbrev Act : Shape := ⟨2, ![50000, 128]⟩
/-- A weight matrix. -/
abbrev Wt : Shape := ⟨2, ![128, 128]⟩
/-- A bias as one row. -/
abbrev Row : Shape := ⟨2, ![1, 128]⟩

/-- Entry `(r, q)` of the dense stage. -/
def denseAt (mean h : Act.Idx → EReal) (Wl : Wt.Idx → EReal) (b : Row.Idx → EReal) (Wr : Wt.Idx → EReal)
    (r : Fin 50000) (q : Fin 128) : EReal :=
  (∑ k : Fin 128, mean (ix2 r k) * Wl (ix2 k q)) + (∑ k : Fin 128, h (ix2 r k) * Wr (ix2 k q)) + b (ix2 (0 : Fin 1) q)

/-- The dense stage as an array. -/
def dense (mean h : Act.Idx → EReal) (Wl : Wt.Idx → EReal) (b : Row.Idx → EReal) (Wr : Wt.Idx → EReal) : Act.Idx → EReal :=
  fun j => denseAt mean h Wl b Wr (j 0) (j 1)

/-- Clamping an array below by zero, entry by entry. -/
def relu (x : Act.Idx → EReal) : Act.Idx → EReal := fun j => max (x j) 0

theorem dense_ix2 (mean h : Act.Idx → EReal) (Wl : Wt.Idx → EReal) (b : Row.Idx → EReal) (Wr : Wt.Idx → EReal)
    (r : Fin 50000) (q : Fin 128) : dense mean h Wl b Wr (ix2 r q) = denseAt mean h Wl b Wr r q := rfl

theorem relu_apply (x : Act.Idx → EReal) (j : Act.Idx) : relu x j = max (x j) 0 := rfl

end Cert.Sage

end
-- ==== Proof.Payload.lean ====
/-
  What one grid point of a layer's dense stage computes from the blocks it loads, entry by entry.

  A point loads a 5000-row block `x0` of the neighbour means, the matching block `x1` of the node features, the
  two whole weight matrices and the bias row. Narrowing to bf16 is the identity on exact values, and a matrix
  product accumulated into zero is the plain sum over the contracted index, so entry `(p, q)` of what it stores is

      (Σ_k x0[p,k] · wl[k,q]) + (Σ_k x1[p,k] · wr[k,q]) + b[0,q],

  clamped below by zero in the first two layers.
-/
import proofs.«129721_j74251394613509_1_alg».proof.Proof.Gen.KernelIdeal.Skeleton
import proofs.«129721_j74251394613509_1_alg».proof.Proof.Dense
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx
open scoped BigOperators

/-! ## The block's matrix product, read at an entry -/

theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A 5000 × 128 block times a 128 × 128 matrix, accumulated into zero: entry `(p, q)` is `Σ_k a[p,k] · w[k,q]`. -/
theorem blockDot_at (a : FVec Ideal S5000x128 .bf16) (w : FVec Ideal S128x128 .bf16) (p : Fin 5000) (q : Fin 128) :
    matmul dot_S5000x128_S128x128_S5000x128_1_0_0_1_n_n none a w (constant (F := Ideal) S5000x128 .f32 0x00000000#32) (ix2 p q)
      = ∑ k : Fin 128, a (ix2 p k) * w (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-! ## The stored block before the clamp -/

/-- The two products and the broadcast bias row, added. -/
def blockOut (x0 x1 : Vec Ideal S5000x128 .f32) (wl wr : Vec Ideal S128x128 .f32) (b : Vec Ideal S1x128 .f32) : FVec Ideal S5000x128 .f32 :=
  addf (addf (matmul dot_S5000x128_S128x128_S5000x128_1_0_0_1_n_n none (truncf .bf16 x0 bitsLt_bf16_f32) (truncf .bf16 wl bitsLt_bf16_f32) (constant (F := Ideal) S5000x128 .f32 0x00000000#32))
             (matmul dot_S5000x128_S128x128_S5000x128_1_0_0_1_n_n none (truncf .bf16 x1 bitsLt_bf16_f32) (truncf .bf16 wr bitsLt_bf16_f32) (constant (F := Ideal) S5000x128 .f32 0x00000000#32)))
       (broadcastTo S5000x128 b broadcasts_S1x128_S5000x128)

theorem blockOut_at (x0 x1 : Vec Ideal S5000x128 .f32) (wl wr : Vec Ideal S128x128 .f32) (b : Vec Ideal S1x128 .f32) (p : Fin 5000) (q : Fin 128) :
    blockOut x0 x1 wl wr b (ix2 p q)
      = (∑ k : Fin 128, x0 (ix2 p k) * wl (ix2 k q)) + (∑ k : Fin 128, x1 (ix2 p k) * wr (ix2 k q)) + b (ix2 (0 : Fin 1) q) := by
  unfold blockOut
  rw [addf_apply, addf_apply, blockDot_at, blockDot_at, broadcastTo_1b_ab_apply]
  rfl

/-! ## The three bodies' payloads -/

theorem pay2_eq (v0 v3 : Vec Ideal S5000x128 .f32) (v6 v8 : Vec Ideal S128x128 .f32) (v13 : Vec Ideal S1x128 .f32) :
    k2_pay1 (F := Ideal) v0 v3 v6 v8 v13 = blockOut v0 v3 v6 v8 v13 := by
  unfold k2_pay1 blockOut
  simp only [shapeCast_self]

theorem pay1_eq (v0 v3 : Vec Ideal S5000x128 .f32) (v6 v8 : Vec Ideal S128x128 .f32) (v13 : Vec Ideal S1x128 .f32) :
    k1_pay1 (F := Ideal) v0 v3 v6 v8 v13 = maximumf (blockOut v0 v3 v6 v8 v13) (broadcast S5000x128 (Scalar.ofBits (F := Ideal) .f32 0x00000000#32)) := by
  unfold k1_pay1 blockOut
  simp only [shapeCast_self]

theorem pay0_eq (v0 v3 : Vec Ideal S5000x128 .f32) (v5 v7 : Vec Ideal S128x128 .f32) (v12 : Vec Ideal S1x128 .f32) :
    k0_pay1 (F := Ideal) v0 v3 v5 v7 v12 = maximumf (blockOut v0 v3 v5 v7 v12) (broadcast S5000x128 (Scalar.ofBits (F := Ideal) .f32 0x00000000#32)) := by
  unfold k0_pay1 blockOut
  simp only [shapeCast_self]

/-- The scalar zero word is the number zero. -/
theorem scalar_zero : Scalar.ofBits (F := Ideal) .f32 0x00000000#32 = (0 : EReal) := Ideal.ofBits_zero_f32

theorem clamped_at (x : FVec Ideal S5000x128 .f32) (j : S5000x128.Idx) :
    maximumf x (broadcast S5000x128 (Scalar.ofBits (F := Ideal) .f32 0x00000000#32)) j = max (x j) 0 := by
  rw [maximumf_apply, broadcast_apply, scalar_zero]

end Cert.KernelIdeal.Body

end
-- ==== Proof.Region0.lean ====
/-
  The first layer's dense stage, from blocks to the whole array.

  The grid has ten points; point `t` loads rows `5000·t … 5000·t + 4999` of the neighbour means and of the node
  features, together with the whole weight matrices and the bias row, and writes back rows `5000·t … 5000·t + 4999` of
  the result. Entry `(p, q)` of what it writes is the dense stage's entry `(5000·t + p, q)` of the WHOLE arrays,
  because that entry depends on row `5000·t + p` only. The ten row blocks tile the 50000 rows (row `r` lies in block
  `r / 5000`), so after the last point the result array is the dense stage of the arrays the region was entered with, clamped below by zero.
  The statement is for arbitrary entry contents `V`: the region is used at whatever the program has computed before it.
-/
import proofs.«129721_j74251394613509_1_alg».proof.Proof.Gen.KernelIdeal.Frame
import proofs.«129721_j74251394613509_1_alg».proof.Proof.Payload

set_option maxRecDepth 16384

noncomputable section

namespace Cert.KernelIdeal.Region0

open Cert.KernelIdeal Cert.KernelIdeal.Gen Cert.KernelIdeal.Body Cert.Sage
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem zero_offsets : (![0, 0] : Fin 2 → Nat) = fun _ => 0 := funext fun a => by fin_cases a <;> rfl

/-- The block index maps over the grid: the three row-blocked windows follow the point, the three whole windows stay. -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 10 := lt_of_lt_of_eq t.isLt N_0

/-- Row `p` of point `t`'s block is row `5000·t + p` of the array. -/
theorem row_lt (t : Fin cfg0.N) (p : Fin 5000) : 5000 * t.val + p.val < 50000 := by
  have := point_lt t; have := p.isLt; omega

/-- The array row a block row stands for. -/
def rowOf (t : Fin cfg0.N) (p : Fin 5000) : Fin 50000 := ⟨5000 * t.val + p.val, row_lt t p⟩

/-! ## The input windows' blocks, read at an entry -/

theorem mean_blk (c : Dev nD) (t : Fin cfg0.N) (p : Fin 5000) (k : Fin 128) :
    (iblk0 V c 0 t : Vec Ideal S5000x128 .f32) (ix2 p k) = (V c main_v24 : Vec Ideal S50000x128 .f32) (ix2 (rowOf t p) k) := by
  obtain ⟨e0, e1, -⟩ := index_maps t
  unfold iblk0
  rw [View.read_apply]
  show V c main_v24 _ = V c main_v24 _
  congr 1
  funext a
  apply Fin.ext
  match a with
  | ⟨0, _⟩ => show win0_0.index t 0 * 5000 + 1 * p.val = 5000 * t.val + p.val; rw [e0]; omega
  | ⟨1, _⟩ => show win0_0.index t 1 * 128 + 1 * k.val = k.val; rw [e1]; omega

theorem feat_blk (c : Dev nD) (t : Fin cfg0.N) (p : Fin 5000) (k : Fin 128) :
    (iblk0 V c 1 t : Vec Ideal S5000x128 .f32) (ix2 p k) = (V c main_arg0 : Vec Ideal S50000x128 .f32) (ix2 (rowOf t p) k) := by
  obtain ⟨-, -, e0, e1, -⟩ := index_maps t
  unfold iblk0
  rw [View.read_apply]
  show V c main_arg0 _ = V c main_arg0 _
  congr 1
  funext a
  apply Fin.ext
  match a with
  | ⟨0, _⟩ => show win0_1.index t 0 * 5000 + 1 * p.val = 5000 * t.val + p.val; rw [e0]; omega
  | ⟨1, _⟩ => show win0_1.index t 1 * 128 + 1 * k.val = k.val; rw [e1]; omega

theorem wl_blk (c : Dev nD) (t : Fin cfg0.N) : (iblk0 V c 2 t : Vec Ideal S128x128 .f32) = V c main_arg2 := by
  obtain ⟨-, -, -, -, e0, e1, -⟩ := index_maps t
  funext j
  unfold iblk0
  rw [View.read_apply]
  show V c main_arg2 _ = V c main_arg2 _
  congr 1
  funext a
  apply Fin.ext
  match a with
  | ⟨0, _⟩ => show win0_2.index t 0 * 128 + 1 * (j 0).val = (j 0).val; rw [e0]; omega
  | ⟨1, _⟩ => show win0_2.index t 1 * 128 + 1 * (j 1).val = (j 1).val; rw [e1]; omega

theorem bias_blk (c : Dev nD) (t : Fin cfg0.N) : (iblk0 V c 3 t : Vec Ideal S1x128 .f32) = V c main_v25 := by
  obtain ⟨-, -, -, -, -, -, e0, e1, -⟩ := index_maps t
  funext j
  unfold iblk0
  rw [View.read_apply]
  show V c main_v25 _ = V c main_v25 _
  congr 1
  funext a
  apply Fin.ext
  match a with
  | ⟨0, _⟩ => show win0_3.index t 0 * 1 + 1 * (j 0).val = (j 0).val; rw [e0]; omega
  | ⟨1, _⟩ => show win0_3.index t 1 * 128 + 1 * (j 1).val = (j 1).val; rw [e1]; omega

theorem wr_blk (c : Dev nD) (t : Fin cfg0.N) : (iblk0 V c 4 t : Vec Ideal S128x128 .f32) = V c main_arg4 := by
  obtain ⟨-, -, -, -, -, -, -, -, e0, e1, -⟩ := index_maps t
  funext j
  unfold iblk0
  rw [View.read_apply]
  show V c main_arg4 _ = V c main_arg4 _
  congr 1
  funext a
  apply Fin.ext
  match a with
  | ⟨0, _⟩ => show win0_4.index t 0 * 128 + 1 * (j 0).val = (j 0).val; rw [e0]; omega
  | ⟨1, _⟩ => show win0_4.index t 1 * 128 + 1 * (j 1).val = (j 1).val; rw [e1]; omega

/-! ## The result array -/

/-- What the region's result array ends holding: the dense stage of the arrays the region was entered with, clamped. -/
def result (c : Dev nD) : Act.Idx → EReal :=
  relu (dense (V c main_v24) (V c main_arg0) (V c main_arg2) (V c main_v25) (V c main_arg4))

/-- Entry `(p, q)` of point `t`'s output block sits at `(5000·t + p, q)` of the array. -/
theorem out_emb (t : Fin cfg0.N) (p : Fin 5000) (q : Fin 128) :
    ((cfg0.win 5).blk t).view.emb (ix2 p q) = (ix2 (rowOf t p) q : S50000x128.Idx) := by
  obtain ⟨-, -, -, -, -, -, -, -, -, -, e0, e1⟩ := index_maps t
  funext a
  apply Fin.ext
  match a with
  | ⟨0, _⟩ => show win0_5.index t 0 * 5000 + 1 * p.val = 5000 * t.val + p.val; rw [e0]; omega
  | ⟨1, _⟩ => show win0_5.index t 1 * 128 + 1 * q.val = q.val; rw [e1]; omega

/-- What point `t` writes back is block `t` of `result`. -/
theorem flushed_eq (c : Dev nD) (t : Fin cfg0.N) :
    (dat0 V c).flushed 5 t = ((cfg0.win 5).blk t).view.read (Elt Ideal) (result V c) := by
  show (cfg0.win 5).cut (grid0.coords t) ((dat0 V c).after 5 t) = _
  rw [after0_5]
  unfold out0_5
  rw [View.canon_unit_zero zero_offsets]
  simp only [View.ld_unit_zero (S := S5000x128) zero_offsets, View.ld_unit_zero (S := S128x128) zero_offsets, View.ld_unit_zero (S := S1x128) zero_offsets]
  rw [pay0_eq, wl_blk V c t, bias_blk V c t, wr_blk V c t]
  funext j
  obtain ⟨p, q, rfl⟩ : ∃ (p : Fin 5000) (q : Fin 128), j = ix2 p q := ⟨j 0, j 1, eq_ix2 j⟩
  rw [View.read_apply, out_emb]
  show maximumf (blockOut (iblk0 V c 0 t) (iblk0 V c 1 t) (V c main_arg2) (V c main_arg4) (V c main_v25)) (broadcast S5000x128 (Scalar.ofBits (F := Ideal) .f32 0x00000000#32)) (ix2 p q) = max (denseAt (V c main_v24) (V c main_arg0) (V c main_arg2) (V c main_v25) (V c main_arg4) (rowOf t p) q) 0
  rw [clamped_at, blockOut_at]
  unfold denseAt
  simp only [mean_blk V c t, feat_blk V c t]

/-- An index of the array is in point `t`'s block iff each coordinate is in the block's range on its axis. -/
theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v26).slice (win0_5.rect t)).set ↔ _
  rw [View.set_slice_whole, Rect.mem_set_unit]
  exact Iff.rfl

/-- Every row lies in some point's block: row `r` in block `r / 5000`. -/
theorem cover (i : S50000x128.Idx) : ∃ t : Fin cfg0.N, (cfg0.win 5).flush t = true ∧ i ∈ ((cfg0.win 5).blk t).view.set := by
  have h0 : (i 0).val < 50000 := (i 0).isLt
  have h1 : (i 1).val < 128 := (i 1).isLt
  have ht : (i 0).val / 5000 < cfg0.N := by rw [show cfg0.N = 10 from N_0]; omega
  obtain ⟨-, -, -, -, -, -, -, -, -, -, e0, e1⟩ := index_maps ⟨(i 0).val / 5000, ht⟩
  refine ⟨⟨(i 0).val / 5000, ht⟩, flush0_5 _, ?_⟩
  rw [mem_blk]
  intro a
  match a with
  | ⟨0, _⟩ => show win0_5.index ⟨(i 0).val / 5000, ht⟩ 0 * 5000 ≤ (i 0).val ∧ (i 0).val < win0_5.index ⟨(i 0).val / 5000, ht⟩ 0 * 5000 + 5000; rw [e0]; show (i 0).val / 5000 * 5000 ≤ (i 0).val ∧ (i 0).val < (i 0).val / 5000 * 5000 + 5000; omega
  | ⟨1, _⟩ => show win0_5.index ⟨(i 0).val / 5000, ht⟩ 1 * 128 ≤ (i 1).val ∧ (i 1).val < win0_5.index ⟨(i 0).val / 5000, ht⟩ 1 * 128 + 128; rw [e1]; omega

/-- After the last point the region's result array is `result` of the entry contents. -/
theorem array_eq (c : Dev nD) : (dat0 V c).arrAt 5 cfg0.N = result V c :=
  (dat0 V c).arrAt_eq_of_cover 5 (result V c) (fun t _ => flushed_eq V c t) cover

end Cert.KernelIdeal.Region0

end
-- ==== Proof.Region1.lean ====
/-
  The second layer's dense stage, from blocks to the whole array.

  The grid has ten points; point `t` loads rows `5000·t … 5000·t + 4999` of the neighbour means and of the node
  features, together with the whole weight matrices and the bias row, and writes back rows `5000·t … 5000·t + 4999` of
  the result. Entry `(p, q)` of what it writes is the dense stage's entry `(5000·t + p, q)` of the WHOLE arrays,
  because that entry depends on row `5000·t + p` only. The ten row blocks tile the 50000 rows (row `r` lies in block
  `r / 5000`), so after the last point the result array is the dense stage of the arrays the region was entered with, clamped below by zero.
  The statement is for arbitrary entry contents `V`: the region is used at whatever the program has computed before it.
-/
import proofs.«129721_j74251394613509_1_alg».proof.Proof.Gen.KernelIdeal.Frame
import proofs.«129721_j74251394613509_1_alg».proof.Proof.Payload

set_option maxRecDepth 16384

noncomputable section

namespace Cert.KernelIdeal.Region1

open Cert.KernelIdeal Cert.KernelIdeal.Gen Cert.KernelIdeal.Body Cert.Sage
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem zero_offsets : (![0, 0] : Fin 2 → Nat) = fun _ => 0 := funext fun a => by fin_cases a <;> rfl

/-- The block index maps over the grid: the three row-blocked windows follow the point, the three whole windows stay. -/
theorem index_maps : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem point_lt (t : Fin cfg1.N) : t.val < 10 := lt_of_lt_of_eq t.isLt N_1

/-- Row `p` of point `t`'s block is row `5000·t + p` of the array. -/
theorem row_lt (t : Fin cfg1.N) (p : Fin 5000) : 5000 * t.val + p.val < 50000 := by
  have := point_lt t; have := p.isLt; omega

/-- The array row a block row stands for. -/
def rowOf (t : Fin cfg1.N) (p : Fin 5000) : Fin 50000 := ⟨5000 * t.val + p.val, row_lt t p⟩

/-! ## The input windows' blocks, read at an entry -/

theorem mean_blk (c : Dev nD) (t : Fin cfg1.N) (p : Fin 5000) (k : Fin 128) :
    (iblk1 V c 0 t : Vec Ideal S5000x128 .f32) (ix2 p k) = (V c main_v38 : Vec Ideal S50000x128 .f32) (ix2 (rowOf t p) k) := by
  obtain ⟨e0, e1, -⟩ := index_maps t
  unfold iblk1
  rw [View.read_apply]
  show V c main_v38 _ = V c main_v38 _
  congr 1
  funext a
  apply Fin.ext
  match a with
  | ⟨0, _⟩ => show win1_0.index t 0 * 5000 + 1 * p.val = 5000 * t.val + p.val; rw [e0]; omega
  | ⟨1, _⟩ => show win1_0.index t 1 * 128 + 1 * k.val = k.val; rw [e1]; omega

theorem feat_blk (c : Dev nD) (t : Fin cfg1.N) (p : Fin 5000) (k : Fin 128) :
    (iblk1 V c 1 t : Vec Ideal S5000x128 .f32) (ix2 p k) = (V c main_v26 : Vec Ideal S50000x128 .f32) (ix2 (rowOf t p) k) := by
  obtain ⟨-, -, e0, e1, -⟩ := index_maps t
  unfold iblk1
  rw [View.read_apply]
  show V c main_v26 _ = V c main_v26 _
  congr 1
  funext a
  apply Fin.ext
  match a with
  | ⟨0, _⟩ => show win1_1.index t 0 * 5000 + 1 * p.val = 5000 * t.val + p.val; rw [e0]; omega
  | ⟨1, _⟩ => show win1_1.index t 1 * 128 + 1 * k.val = k.val; rw [e1]; omega

theorem wl_blk (c : Dev nD) (t : Fin cfg1.N) : (iblk1 V c 2 t : Vec Ideal S128x128 .f32) = V c main_arg5 := by
  obtain ⟨-, -, -, -, e0, e1, -⟩ := index_maps t
  funext j
  unfold iblk1
  rw [View.read_apply]
  show V c main_arg5 _ = V c main_arg5 _
  congr 1
  funext a
  apply Fin.ext
  match a with
  | ⟨0, _⟩ => show win1_2.index t 0 * 128 + 1 * (j 0).val = (j 0).val; rw [e0]; omega
  | ⟨1, _⟩ => show win1_2.index t 1 * 128 + 1 * (j 1).val = (j 1).val; rw [e1]; omega

theorem bias_blk (c : Dev nD) (t : Fin cfg1.N) : (iblk1 V c 3 t : Vec Ideal S1x128 .f32) = V c main_v39 := by
  obtain ⟨-, -, -, -, -, -, e0, e1, -⟩ := index_maps t
  funext j
  unfold iblk1
  rw [View.read_apply]
  show V c main_v39 _ = V c main_v39 _
  congr 1
  funext a
  apply Fin.ext
  match a with
  | ⟨0, _⟩ => show win1_3.index t 0 * 1 + 1 * (j 0).val = (j 0).val; rw [e0]; omega
  | ⟨1, _⟩ => show win1_3.index t 1 * 128 + 1 * (j 1).val = (j 1).val; rw [e1]; omega

theorem wr_blk (c : Dev nD) (t : Fin cfg1.N) : (iblk1 V c 4 t : Vec Ideal S128x128 .f32) = V c main_arg7 := by
  obtain ⟨-, -, -, -, -, -, -, -, e0, e1, -⟩ := index_maps t
  funext j
  unfold iblk1
  rw [View.read_apply]
  show V c main_arg7 _ = V c main_arg7 _
  congr 1
  funext a
  apply Fin.ext
  match a with
  | ⟨0, _⟩ => show win1_4.index t 0 * 128 + 1 * (j 0).val = (j 0).val; rw [e0]; omega
  | ⟨1, _⟩ => show win1_4.index t 1 * 128 + 1 * (j 1).val = (j 1).val; rw [e1]; omega

/-! ## The result array -/

/-- What the region's result array ends holding: the dense stage of the arrays the region was entered with, clamped. -/
def result (c : Dev nD) : Act.Idx → EReal :=
  relu (dense (V c main_v38) (V c main_v26) (V c main_arg5) (V c main_v39) (V c main_arg7))

/-- Entry `(p, q)` of point `t`'s output block sits at `(5000·t + p, q)` of the array. -/
theorem out_emb (t : Fin cfg1.N) (p : Fin 5000) (q : Fin 128) :
    ((cfg1.win 5).blk t).view.emb (ix2 p q) = (ix2 (rowOf t p) q : S50000x128.Idx) := by
  obtain ⟨-, -, -, -, -, -, -, -, -, -, e0, e1⟩ := index_maps t
  funext a
  apply Fin.ext
  match a with
  | ⟨0, _⟩ => show win1_5.index t 0 * 5000 + 1 * p.val = 5000 * t.val + p.val; rw [e0]; omega
  | ⟨1, _⟩ => show win1_5.index t 1 * 128 + 1 * q.val = q.val; rw [e1]; omega

/-- What point `t` writes back is block `t` of `result`. -/
theorem flushed_eq (c : Dev nD) (t : Fin cfg1.N) :
    (dat1 V c).flushed 5 t = ((cfg1.win 5).blk t).view.read (Elt Ideal) (result V c) := by
  show (cfg1.win 5).cut (grid1.coords t) ((dat1 V c).after 5 t) = _
  rw [after1_5]
  unfold out1_5
  rw [View.canon_unit_zero zero_offsets]
  simp only [View.ld_unit_zero (S := S5000x128) zero_offsets, View.ld_unit_zero (S := S128x128) zero_offsets, View.ld_unit_zero (S := S1x128) zero_offsets]
  rw [pay1_eq, wl_blk V c t, bias_blk V c t, wr_blk V c t]
  funext j
  obtain ⟨p, q, rfl⟩ : ∃ (p : Fin 5000) (q : Fin 128), j = ix2 p q := ⟨j 0, j 1, eq_ix2 j⟩
  rw [View.read_apply, out_emb]
  show maximumf (blockOut (iblk1 V c 0 t) (iblk1 V c 1 t) (V c main_arg5) (V c main_arg7) (V c main_v39)) (broadcast S5000x128 (Scalar.ofBits (F := Ideal) .f32 0x00000000#32)) (ix2 p q) = max (denseAt (V c main_v38) (V c main_v26) (V c main_arg5) (V c main_v39) (V c main_arg7) (rowOf t p) q) 0
  rw [clamped_at, blockOut_at]
  unfold denseAt
  simp only [mean_blk V c t, feat_blk V c t]

/-- An index of the array is in point `t`'s block iff each coordinate is in the block's range on its axis. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v40).slice (win1_5.rect t)).set ↔ _
  rw [View.set_slice_whole, Rect.mem_set_unit]
  exact Iff.rfl

/-- Every row lies in some point's block: row `r` in block `r / 5000`. -/
theorem cover (i : S50000x128.Idx) : ∃ t : Fin cfg1.N, (cfg1.win 5).flush t = true ∧ i ∈ ((cfg1.win 5).blk t).view.set := by
  have h0 : (i 0).val < 50000 := (i 0).isLt
  have h1 : (i 1).val < 128 := (i 1).isLt
  have ht : (i 0).val / 5000 < cfg1.N := by rw [show cfg1.N = 10 from N_1]; omega
  obtain ⟨-, -, -, -, -, -, -, -, -, -, e0, e1⟩ := index_maps ⟨(i 0).val / 5000, ht⟩
  refine ⟨⟨(i 0).val / 5000, ht⟩, flush1_5 _, ?_⟩
  rw [mem_blk]
  intro a
  match a with
  | ⟨0, _⟩ => show win1_5.index ⟨(i 0).val / 5000, ht⟩ 0 * 5000 ≤ (i 0).val ∧ (i 0).val < win1_5.index ⟨(i 0).val / 5000, ht⟩ 0 * 5000 + 5000; rw [e0]; show (i 0).val / 5000 * 5000 ≤ (i 0).val ∧ (i 0).val < (i 0).val / 5000 * 5000 + 5000; omega
  | ⟨1, _⟩ => show win1_5.index ⟨(i 0).val / 5000, ht⟩ 1 * 128 ≤ (i 1).val ∧ (i 1).val < win1_5.index ⟨(i 0).val / 5000, ht⟩ 1 * 128 + 128; rw [e1]; omega

/-- After the last point the region's result array is `result` of the entry contents. -/
theorem array_eq (c : Dev nD) : (dat1 V c).arrAt 5 cfg1.N = result V c :=
  (dat1 V c).arrAt_eq_of_cover 5 (result V c) (fun t _ => flushed_eq V c t) cover

end Cert.KernelIdeal.Region1

end
-- ==== Proof.Region2.lean ====
/-
  The third layer's dense stage, from blocks to the whole array.

  The grid has ten points; point `t` loads rows `5000·t … 5000·t + 4999` of the neighbour means and of the node
  features, together with the whole weight matrices and the bias row, and writes back rows `5000·t … 5000·t + 4999` of
  the result. Entry `(p, q)` of what it writes is the dense stage's entry `(5000·t + p, q)` of the WHOLE arrays,
  because that entry depends on row `5000·t + p` only. The ten row blocks tile the 50000 rows (row `r` lies in block
  `r / 5000`), so after the last point the result array is the dense stage of the arrays the region was entered with.
  The statement is for arbitrary entry contents `V`: the region is used at whatever the program has computed before it.
-/
import proofs.«129721_j74251394613509_1_alg».proof.Proof.Gen.KernelIdeal.Frame
import proofs.«129721_j74251394613509_1_alg».proof.Proof.Payload

set_option maxRecDepth 16384

noncomputable section

namespace Cert.KernelIdeal.Region2

open Cert.KernelIdeal Cert.KernelIdeal.Gen Cert.KernelIdeal.Body Cert.Sage
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem zero_offsets : (![0, 0] : Fin 2 → Nat) = fun _ => 0 := funext fun a => by fin_cases a <;> rfl

/-- The block index maps over the grid: the three row-blocked windows follow the point, the three whole windows stay. -/
theorem index_maps : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem point_lt (t : Fin cfg2.N) : t.val < 10 := lt_of_lt_of_eq t.isLt N_2

/-- Row `p` of point `t`'s block is row `5000·t + p` of the array. -/
theorem row_lt (t : Fin cfg2.N) (p : Fin 5000) : 5000 * t.val + p.val < 50000 := by
  have := point_lt t; have := p.isLt; omega

/-- The array row a block row stands for. -/
def rowOf (t : Fin cfg2.N) (p : Fin 5000) : Fin 50000 := ⟨5000 * t.val + p.val, row_lt t p⟩

/-! ## The input windows' blocks, read at an entry -/

theorem mean_blk (c : Dev nD) (t : Fin cfg2.N) (p : Fin 5000) (k : Fin 128) :
    (iblk2 V c 0 t : Vec Ideal S5000x128 .f32) (ix2 p k) = (V c main_v52 : Vec Ideal S50000x128 .f32) (ix2 (rowOf t p) k) := by
  obtain ⟨e0, e1, -⟩ := index_maps t
  unfold iblk2
  rw [View.read_apply]
  show V c main_v52 _ = V c main_v52 _
  congr 1
  funext a
  apply Fin.ext
  match a with
  | ⟨0, _⟩ => show win2_0.index t 0 * 5000 + 1 * p.val = 5000 * t.val + p.val; rw [e0]; omega
  | ⟨1, _⟩ => show win2_0.index t 1 * 128 + 1 * k.val = k.val; rw [e1]; omega

theorem feat_blk (c : Dev nD) (t : Fin cfg2.N) (p : Fin 5000) (k : Fin 128) :
    (iblk2 V c 1 t : Vec Ideal S5000x128 .f32) (ix2 p k) = (V c main_v40 : Vec Ideal S50000x128 .f32) (ix2 (rowOf t p) k) := by
  obtain ⟨-, -, e0, e1, -⟩ := index_maps t
  unfold iblk2
  rw [View.read_apply]
  show V c main_v40 _ = V c main_v40 _
  congr 1
  funext a
  apply Fin.ext
  match a with
  | ⟨0, _⟩ => show win2_1.index t 0 * 5000 + 1 * p.val = 5000 * t.val + p.val; rw [e0]; omega
  | ⟨1, _⟩ => show win2_1.index t 1 * 128 + 1 * k.val = k.val; rw [e1]; omega

theorem wl_blk (c : Dev nD) (t : Fin cfg2.N) : (iblk2 V c 2 t : Vec Ideal S128x128 .f32) = V c main_arg8 := by
  obtain ⟨-, -, -, -, e0, e1, -⟩ := index_maps t
  funext j
  unfold iblk2
  rw [View.read_apply]
  show V c main_arg8 _ = V c main_arg8 _
  congr 1
  funext a
  apply Fin.ext
  match a with
  | ⟨0, _⟩ => show win2_2.index t 0 * 128 + 1 * (j 0).val = (j 0).val; rw [e0]; omega
  | ⟨1, _⟩ => show win2_2.index t 1 * 128 + 1 * (j 1).val = (j 1).val; rw [e1]; omega

theorem bias_blk (c : Dev nD) (t : Fin cfg2.N) : (iblk2 V c 3 t : Vec Ideal S1x128 .f32) = V c main_v53 := by
  obtain ⟨-, -, -, -, -, -, e0, e1, -⟩ := index_maps t
  funext j
  unfold iblk2
  rw [View.read_apply]
  show V c main_v53 _ = V c main_v53 _
  congr 1
  funext a
  apply Fin.ext
  match a with
  | ⟨0, _⟩ => show win2_3.index t 0 * 1 + 1 * (j 0).val = (j 0).val; rw [e0]; omega
  | ⟨1, _⟩ => show win2_3.index t 1 * 128 + 1 * (j 1).val = (j 1).val; rw [e1]; omega

theorem wr_blk (c : Dev nD) (t : Fin cfg2.N) : (iblk2 V c 4 t : Vec Ideal S128x128 .f32) = V c main_arg10 := by
  obtain ⟨-, -, -, -, -, -, -, -, e0, e1, -⟩ := index_maps t
  funext j
  unfold iblk2
  rw [View.read_apply]
  show V c main_arg10 _ = V c main_arg10 _
  congr 1
  funext a
  apply Fin.ext
  match a with
  | ⟨0, _⟩ => show win2_4.index t 0 * 128 + 1 * (j 0).val = (j 0).val; rw [e0]; omega
  | ⟨1, _⟩ => show win2_4.index t 1 * 128 + 1 * (j 1).val = (j 1).val; rw [e1]; omega

/-! ## The result array -/

/-- What the region's result array ends holding: the dense stage of the arrays the region was entered with. -/
def result (c : Dev nD) : Act.Idx → EReal :=
  dense (V c main_v52) (V c main_v40) (V c main_arg8) (V c main_v53) (V c main_arg10)

/-- Entry `(p, q)` of point `t`'s output block sits at `(5000·t + p, q)` of the array. -/
theorem out_emb (t : Fin cfg2.N) (p : Fin 5000) (q : Fin 128) :
    ((cfg2.win 5).blk t).view.emb (ix2 p q) = (ix2 (rowOf t p) q : S50000x128.Idx) := by
  obtain ⟨-, -, -, -, -, -, -, -, -, -, e0, e1⟩ := index_maps t
  funext a
  apply Fin.ext
  match a with
  | ⟨0, _⟩ => show win2_5.index t 0 * 5000 + 1 * p.val = 5000 * t.val + p.val; rw [e0]; omega
  | ⟨1, _⟩ => show win2_5.index t 1 * 128 + 1 * q.val = q.val; rw [e1]; omega

/-- What point `t` writes back is block `t` of `result`. -/
theorem flushed_eq (c : Dev nD) (t : Fin cfg2.N) :
    (dat2 V c).flushed 5 t = ((cfg2.win 5).blk t).view.read (Elt Ideal) (result V c) := by
  show (cfg2.win 5).cut (grid2.coords t) ((dat2 V c).after 5 t) = _
  rw [after2_5]
  unfold out2_5
  rw [View.canon_unit_zero zero_offsets]
  simp only [View.ld_unit_zero (S := S5000x128) zero_offsets, View.ld_unit_zero (S := S128x128) zero_offsets, View.ld_unit_zero (S := S1x128) zero_offsets]
  rw [pay2_eq, wl_blk V c t, bias_blk V c t, wr_blk V c t]
  funext j
  obtain ⟨p, q, rfl⟩ : ∃ (p : Fin 5000) (q : Fin 128), j = ix2 p q := ⟨j 0, j 1, eq_ix2 j⟩
  rw [View.read_apply, out_emb]
  show blockOut (iblk2 V c 0 t) (iblk2 V c 1 t) (V c main_arg8) (V c main_arg10) (V c main_v53) (ix2 p q) = denseAt (V c main_v52) (V c main_v40) (V c main_arg8) (V c main_v53) (V c main_arg10) (rowOf t p) q
  rw [blockOut_at]
  unfold denseAt
  simp only [mean_blk V c t, feat_blk V c t]

/-- An index of the array is in point `t`'s block iff each coordinate is in the block's range on its axis. -/
theorem mem_blk (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v54).slice (win2_5.rect t)).set ↔ _
  rw [View.set_slice_whole, Rect.mem_set_unit]
  exact Iff.rfl

/-- Every row lies in some point's block: row `r` in block `r / 5000`. -/
theorem cover (i : S50000x128.Idx) : ∃ t : Fin cfg2.N, (cfg2.win 5).flush t = true ∧ i ∈ ((cfg2.win 5).blk t).view.set := by
  have h0 : (i 0).val < 50000 := (i 0).isLt
  have h1 : (i 1).val < 128 := (i 1).isLt
  have ht : (i 0).val / 5000 < cfg2.N := by rw [show cfg2.N = 10 from N_2]; omega
  obtain ⟨-, -, -, -, -, -, -, -, -, -, e0, e1⟩ := index_maps ⟨(i 0).val / 5000, ht⟩
  refine ⟨⟨(i 0).val / 5000, ht⟩, flush2_5 _, ?_⟩
  rw [mem_blk]
  intro a
  match a with
  | ⟨0, _⟩ => show win2_5.index ⟨(i 0).val / 5000, ht⟩ 0 * 5000 ≤ (i 0).val ∧ (i 0).val < win2_5.index ⟨(i 0).val / 5000, ht⟩ 0 * 5000 + 5000; rw [e0]; show (i 0).val / 5000 * 5000 ≤ (i 0).val ∧ (i 0).val < (i 0).val / 5000 * 5000 + 5000; omega
  | ⟨1, _⟩ => show win2_5.index ⟨(i 0).val / 5000, ht⟩ 1 * 128 ≤ (i 1).val ∧ (i 1).val < win2_5.index ⟨(i 0).val / 5000, ht⟩ 1 * 128 + 128; rw [e1]; omega

/-- After the last point the region's result array is `result` of the entry contents. -/
theorem array_eq (c : Dev nD) : (dat2 V c).arrAt 5 cfg2.N = result V c :=
  (dat2 V c).arrAt_eq_of_cover 5 (result V c) (fun t _ => flushed_eq V c t) cover

end Cert.KernelIdeal.Region2

end
-- ==== Proof.KernelNet.lean ====
/-
  The kernel program's host side, named.

  From the edge list `E` (2 × 800000 integers: row 0 the source of each edge, row 1 its destination) the program
  forms, once, the reciprocal of each node's clamped in-degree, and, per layer, the sum over each node's incoming
  edges of the source node's features (a gather along the sources, negative indices wrapped by 50000, then a
  scatter-add along the destinations) times that reciprocal: the neighbour mean. These are the same host operations
  in every layer; they are named here once, as functions of the arrays they read, and are never opened: the
  reference applies the very same gather and scatter-add.
-/
import proofs.«129721_j74251394613509_1_alg».proof.Proof.Gen.KernelIdeal.Frame
import proofs.«129721_j74251394613509_1_alg».proof.Proof.Dense
import Idealize.ShloMosaic.Lib.StableHlo.Run

set_option maxRecDepth 16384

noncomputable section

namespace Cert.KernelIdeal.Net

open Cert.KernelIdeal Cert.KernelIdeal.Gen Cert.Sage
open Idealize.ShloMosaic Idealize.ShloMosaic.TcCoe Idealize.SL.Sem Idealize.ShloMosaic.StableHlo

/-- Row `a` of the edge list as a vector of 800000 node indices. -/
def edgeRow0 (E : IVec S2x800000 32) : IVec S800000 32 :=
  shapeCast _ (extractStridedSlice S1x800000 ![0, 0] E slices_S2x800000_S1x800000_0_0) shapeCasts_S1x800000_S800000
def edgeRow1 (E : IVec S2x800000 32) : IVec S800000 32 :=
  shapeCast _ (extractStridedSlice S1x800000 ![1, 0] E slices_S2x800000_S1x800000_1_0) shapeCasts_S1x800000_S800000

/-- The source indices with a negative index wrapped around by the node count. -/
def wrapped (s : IVec S800000 32) : IVec S800000 32 :=
  select (cmpi .slt s (broadcastInDim S800000 ![] bcast_S_S800000 (constantI S_ 32 0#32)))
    (addi s (broadcastInDim S800000 ![] bcast_S_S800000 (constantI S_ 32 50000#32))) s

/-- The sum, over each node's incoming edges, of the source node's row of `h`. -/
def aggregate (h : FVec Ideal S50000x128 .f32) (s d : IVec S800000 32) :
    FVec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 d)
    (Host.gather gather_S50000x128_S800000x1_S800000x128_1_0_n_n_0_1_1128 h (broadcastInDim S800000x1 ![0] bcast_S800000_S800000x1_0 (wrapped s)))

/-- Each node's in-degree, clamped below by one. -/
def clampedCount (d : IVec S800000 32) : FVec Ideal S50000 .f32 :=
  maximumf
    (Host.scatterAdd scatter_S50000_S800000x1_S800000_n_0_0_1
      (broadcastInDim S50000 ![] bcast_S_S50000 (constant (F := Ideal) S_ .f32 0x00000000#32))
      (broadcastInDim S800000x1 ![0] bcast_S800000_S800000x1_0 d)
      (broadcastInDim S800000 ![] bcast_S_S800000 (constant (F := Ideal) S_ .f32 0x3F800000#32)))
    (broadcastInDim S50000 ![] bcast_S_S50000 (constant (F := Ideal) S_ .f32 0x3F800000#32))

/-- The reciprocal of the clamped in-degree, as a column. -/
def recipCol (d : IVec S800000 32) : FVec Ideal S50000x1 .f32 :=
  shapeCast _ (Host.divf (broadcastInDim S50000 ![] bcast_S_S50000 (constant (F := Ideal) S_ .f32 0x3F800000#32)) (clampedCount d)) shapeCasts_S50000_S50000x1

/-- The neighbour mean: the aggregate times the reciprocal column, broadcast along the features. -/
def meanOf (h : FVec Ideal S50000x128 .f32) (s d : IVec S800000 32)
    (r : FVec Ideal S50000x1 .f32) : FVec Ideal S50000x128 .f32 :=
  mulf (aggregate h s d) (broadcastInDim S50000x128 ![0, 1] bcast_S50000x1_S50000x128_0_1 r)

/-- A bias vector as one row. -/
def biasRow (b : FVec Ideal S128 .f32) : FVec Ideal S1x128 .f32 :=
  shapeCast _ b shapeCasts_S128_S1x128

variable (m : (ℓ : Loc nD τ sig) → Buf (Elt Ideal) ℓ) (ρ : Dev nD → PrngReg)

/-! ## The first host stretch: the contents the first region is entered with -/

theorem W1_v1 (c : Dev nD) : W1 m ρ c (Proc.devRef .tc main_v1) = edgeRow0 (m ((c : Thread nD τ).loc main_arg1)) := by
  show StableHlo.after hostOps0 (W0 m ρ c) (Proc.devRef .tc main_v1) = _
  after_results_simp
  rfl

theorem W1_v3 (c : Dev nD) : W1 m ρ c (Proc.devRef .tc main_v3) = edgeRow1 (m ((c : Thread nD τ).loc main_arg1)) := by
  show StableHlo.after hostOps0 (W0 m ρ c) (Proc.devRef .tc main_v3) = _
  after_results_simp
  rfl

theorem W1_v12 (c : Dev nD) : W1 m ρ c (Proc.devRef .tc main_v12) = recipCol (edgeRow1 (m ((c : Thread nD τ).loc main_arg1))) := by
  show StableHlo.after hostOps0 (W0 m ρ c) (Proc.devRef .tc main_v12) = _
  after_results_simp
  rfl

theorem W1_v24 (c : Dev nD) : W1 m ρ c (Proc.devRef .tc main_v24)
    = meanOf (m ((c : Thread nD τ).loc main_arg0)) (edgeRow0 (m ((c : Thread nD τ).loc main_arg1))) (edgeRow1 (m ((c : Thread nD τ).loc main_arg1)))
        (recipCol (edgeRow1 (m ((c : Thread nD τ).loc main_arg1)))) := by
  show StableHlo.after hostOps0 (W0 m ρ c) (Proc.devRef .tc main_v24) = _
  after_results_simp
  rfl

theorem W1_v25 (c : Dev nD) : W1 m ρ c (Proc.devRef .tc main_v25) = biasRow (m ((c : Thread nD τ).loc main_arg3)) := by
  show StableHlo.after hostOps0 (W0 m ρ c) (Proc.devRef .tc main_v25) = _
  after_results_simp
  rfl

/-- The arguments the later layers read are untouched by the first stretch. -/
theorem W1_arg0 (c : Dev nD) : W1 m ρ c (Proc.devRef .tc main_arg0) = m ((c : Thread nD τ).loc main_arg0) := by
  show StableHlo.after hostOps0 (W0 m ρ c) (Proc.devRef .tc main_arg0) = _
  after_results_simp <;> rfl

theorem W1_arg2 (c : Dev nD) : W1 m ρ c (Proc.devRef .tc main_arg2) = m ((c : Thread nD τ).loc main_arg2) := by
  show StableHlo.after hostOps0 (W0 m ρ c) (Proc.devRef .tc main_arg2) = _
  after_results_simp <;> rfl

theorem W1_arg4 (c : Dev nD) : W1 m ρ c (Proc.devRef .tc main_arg4) = m ((c : Thread nD τ).loc main_arg4) := by
  show StableHlo.after hostOps0 (W0 m ρ c) (Proc.devRef .tc main_arg4) = _
  after_results_simp <;> rfl

theorem W1_arg5 (c : Dev nD) : W1 m ρ c (Proc.devRef .tc main_arg5) = m ((c : Thread nD τ).loc main_arg5) := by
  show StableHlo.after hostOps0 (W0 m ρ c) (Proc.devRef .tc main_arg5) = _
  after_results_simp <;> rfl

theorem W1_arg6 (c : Dev nD) : W1 m ρ c (Proc.devRef .tc main_arg6) = m ((c : Thread nD τ).loc main_arg6) := by
  show StableHlo.after hostOps0 (W0 m ρ c) (Proc.devRef .tc main_arg6) = _
  after_results_simp <;> rfl

theorem W1_arg7 (c : Dev nD) : W1 m ρ c (Proc.devRef .tc main_arg7) = m ((c : Thread nD τ).loc main_arg7) := by
  show StableHlo.after hostOps0 (W0 m ρ c) (Proc.devRef .tc main_arg7) = _
  after_results_simp <;> rfl

theorem W1_arg8 (c : Dev nD) : W1 m ρ c (Proc.devRef .tc main_arg8) = m ((c : Thread nD τ).loc main_arg8) := by
  show StableHlo.after hostOps0 (W0 m ρ c) (Proc.devRef .tc main_arg8) = _
  after_results_simp <;> rfl

theorem W1_arg9 (c : Dev nD) : W1 m ρ c (Proc.devRef .tc main_arg9) = m ((c : Thread nD τ).loc main_arg9) := by
  show StableHlo.after hostOps0 (W0 m ρ c) (Proc.devRef .tc main_arg9) = _
  after_results_simp <;> rfl

theorem W1_arg10 (c : Dev nD) : W1 m ρ c (Proc.devRef .tc main_arg10) = m ((c : Thread nD τ).loc main_arg10) := by
  show StableHlo.after hostOps0 (W0 m ρ c) (Proc.devRef .tc main_arg10) = _
  after_results_simp <;> rfl

/-! ## The second host stretch, from the first region's exit contents -/

theorem W3_v38 (c : Dev nD) : W3 m ρ c (Proc.devRef .tc main_v38) = meanOf (W2 m ρ c (Proc.devRef .tc main_v26)) (W2 m ρ c (Proc.devRef .tc main_v1)) (W2 m ρ c (Proc.devRef .tc main_v3)) (W2 m ρ c (Proc.devRef .tc main_v12)) := by
  show StableHlo.after hostOps1 (W2 m ρ c) (Proc.devRef .tc main_v38) = _
  after_results_simp <;> rfl

theorem W3_v39 (c : Dev nD) : W3 m ρ c (Proc.devRef .tc main_v39) = biasRow (W2 m ρ c (Proc.devRef .tc main_arg6)) := by
  show StableHlo.after hostOps1 (W2 m ρ c) (Proc.devRef .tc main_v39) = _
  after_results_simp <;> rfl

theorem W3_keep_main_v26 (c : Dev nD) : W3 m ρ c (Proc.devRef .tc main_v26) = W2 m ρ c (Proc.devRef .tc main_v26) := by
  show StableHlo.after hostOps1 (W2 m ρ c) (Proc.devRef .tc main_v26) = _
  after_results_simp <;> rfl

theorem W3_keep_main_arg5 (c : Dev nD) : W3 m ρ c (Proc.devRef .tc main_arg5) = W2 m ρ c (Proc.devRef .tc main_arg5) := by
  show StableHlo.after hostOps1 (W2 m ρ c) (Proc.devRef .tc main_arg5) = _
  after_results_simp <;> rfl

theorem W3_keep_main_arg7 (c : Dev nD) : W3 m ρ c (Proc.devRef .tc main_arg7) = W2 m ρ c (Proc.devRef .tc main_arg7) := by
  show StableHlo.after hostOps1 (W2 m ρ c) (Proc.devRef .tc main_arg7) = _
  after_results_simp <;> rfl

theorem W3_keep_main_v1 (c : Dev nD) : W3 m ρ c (Proc.devRef .tc main_v1) = W2 m ρ c (Proc.devRef .tc main_v1) := by
  show StableHlo.after hostOps1 (W2 m ρ c) (Proc.devRef .tc main_v1) = _
  after_results_simp <;> rfl

theorem W3_keep_main_v3 (c : Dev nD) : W3 m ρ c (Proc.devRef .tc main_v3) = W2 m ρ c (Proc.devRef .tc main_v3) := by
  show StableHlo.after hostOps1 (W2 m ρ c) (Proc.devRef .tc main_v3) = _
  after_results_simp <;> rfl

theorem W3_keep_main_v12 (c : Dev nD) : W3 m ρ c (Proc.devRef .tc main_v12) = W2 m ρ c (Proc.devRef .tc main_v12) := by
  show StableHlo.after hostOps1 (W2 m ρ c) (Proc.devRef .tc main_v12) = _
  after_results_simp <;> rfl

theorem W3_keep_main_arg8 (c : Dev nD) : W3 m ρ c (Proc.devRef .tc main_arg8) = W2 m ρ c (Proc.devRef .tc main_arg8) := by
  show StableHlo.after hostOps1 (W2 m ρ c) (Proc.devRef .tc main_arg8) = _
  after_results_simp <;> rfl

theorem W3_keep_main_arg9 (c : Dev nD) : W3 m ρ c (Proc.devRef .tc main_arg9) = W2 m ρ c (Proc.devRef .tc main_arg9) := by
  show StableHlo.after hostOps1 (W2 m ρ c) (Proc.devRef .tc main_arg9) = _
  after_results_simp <;> rfl

theorem W3_keep_main_arg10 (c : Dev nD) : W3 m ρ c (Proc.devRef .tc main_arg10) = W2 m ρ c (Proc.devRef .tc main_arg10) := by
  show StableHlo.after hostOps1 (W2 m ρ c) (Proc.devRef .tc main_arg10) = _
  after_results_simp <;> rfl

/-! ## The third host stretch, from the second region's exit contents -/

theorem W5_v52 (c : Dev nD) : W5 m ρ c (Proc.devRef .tc main_v52) = meanOf (W4 m ρ c (Proc.devRef .tc main_v40)) (W4 m ρ c (Proc.devRef .tc main_v1)) (W4 m ρ c (Proc.devRef .tc main_v3)) (W4 m ρ c (Proc.devRef .tc main_v12)) := by
  show StableHlo.after hostOps2 (W4 m ρ c) (Proc.devRef .tc main_v52) = _
  after_results_simp <;> rfl

theorem W5_v53 (c : Dev nD) : W5 m ρ c (Proc.devRef .tc main_v53) = biasRow (W4 m ρ c (Proc.devRef .tc main_arg9)) := by
  show StableHlo.after hostOps2 (W4 m ρ c) (Proc.devRef .tc main_v53) = _
  after_results_simp <;> rfl

theorem W5_keep_main_v40 (c : Dev nD) : W5 m ρ c (Proc.devRef .tc main_v40) = W4 m ρ c (Proc.devRef .tc main_v40) := by
  show StableHlo.after hostOps2 (W4 m ρ c) (Proc.devRef .tc main_v40) = _
  after_results_simp <;> rfl

theorem W5_keep_main_arg8 (c : Dev nD) : W5 m ρ c (Proc.devRef .tc main_arg8) = W4 m ρ c (Proc.devRef .tc main_arg8) := by
  show StableHlo.after hostOps2 (W4 m ρ c) (Proc.devRef .tc main_arg8) = _
  after_results_simp <;> rfl

theorem W5_keep_main_arg10 (c : Dev nD) : W5 m ρ c (Proc.devRef .tc main_arg10) = W4 m ρ c (Proc.devRef .tc main_arg10) := by
  show StableHlo.after hostOps2 (W4 m ρ c) (Proc.devRef .tc main_arg10) = _
  after_results_simp <;> rfl

/-! ## A region leaves every buffer that is not one of its arrays as it found it -/

theorem W2_keep_main_v1 (c : Dev nD) : W2 m ρ c (Proc.devRef .tc main_v1) = W1 m ρ c (Proc.devRef .tc main_v1) := W2_of_ne m ρ c main_v1 (by decide)
theorem W2_keep_main_v3 (c : Dev nD) : W2 m ρ c (Proc.devRef .tc main_v3) = W1 m ρ c (Proc.devRef .tc main_v3) := W2_of_ne m ρ c main_v3 (by decide)
theorem W2_keep_main_v12 (c : Dev nD) : W2 m ρ c (Proc.devRef .tc main_v12) = W1 m ρ c (Proc.devRef .tc main_v12) := W2_of_ne m ρ c main_v12 (by decide)
theorem W2_keep_main_arg5 (c : Dev nD) : W2 m ρ c (Proc.devRef .tc main_arg5) = W1 m ρ c (Proc.devRef .tc main_arg5) := W2_of_ne m ρ c main_arg5 (by decide)
theorem W2_keep_main_arg6 (c : Dev nD) : W2 m ρ c (Proc.devRef .tc main_arg6) = W1 m ρ c (Proc.devRef .tc main_arg6) := W2_of_ne m ρ c main_arg6 (by decide)
theorem W2_keep_main_arg7 (c : Dev nD) : W2 m ρ c (Proc.devRef .tc main_arg7) = W1 m ρ c (Proc.devRef .tc main_arg7) := W2_of_ne m ρ c main_arg7 (by decide)
theorem W2_keep_main_arg8 (c : Dev nD) : W2 m ρ c (Proc.devRef .tc main_arg8) = W1 m ρ c (Proc.devRef .tc main_arg8) := W2_of_ne m ρ c main_arg8 (by decide)
theorem W2_keep_main_arg9 (c : Dev nD) : W2 m ρ c (Proc.devRef .tc main_arg9) = W1 m ρ c (Proc.devRef .tc main_arg9) := W2_of_ne m ρ c main_arg9 (by decide)
theorem W2_keep_main_arg10 (c : Dev nD) : W2 m ρ c (Proc.devRef .tc main_arg10) = W1 m ρ c (Proc.devRef .tc main_arg10) := W2_of_ne m ρ c main_arg10 (by decide)
theorem W4_keep_main_v1 (c : Dev nD) : W4 m ρ c (Proc.devRef .tc main_v1) = W3 m ρ c (Proc.devRef .tc main_v1) := W4_of_ne m ρ c main_v1 (by decide)
theorem W4_keep_main_v3 (c : Dev nD) : W4 m ρ c (Proc.devRef .tc main_v3) = W3 m ρ c (Proc.devRef .tc main_v3) := W4_of_ne m ρ c main_v3 (by decide)
theorem W4_keep_main_v12 (c : Dev nD) : W4 m ρ c (Proc.devRef .tc main_v12) = W3 m ρ c (Proc.devRef .tc main_v12) := W4_of_ne m ρ c main_v12 (by decide)
theorem W4_keep_main_arg8 (c : Dev nD) : W4 m ρ c (Proc.devRef .tc main_arg8) = W3 m ρ c (Proc.devRef .tc main_arg8) := W4_of_ne m ρ c main_arg8 (by decide)
theorem W4_keep_main_arg9 (c : Dev nD) : W4 m ρ c (Proc.devRef .tc main_arg9) = W3 m ρ c (Proc.devRef .tc main_arg9) := W4_of_ne m ρ c main_arg9 (by decide)
theorem W4_keep_main_arg10 (c : Dev nD) : W4 m ρ c (Proc.devRef .tc main_arg10) = W3 m ρ c (Proc.devRef .tc main_arg10) := W4_of_ne m ρ c main_arg10 (by decide)

end Cert.KernelIdeal.Net

end
-- ==== Proof.KernelRun.lean ====
/-
  The kernel program's run with its result named.

  The program is three dense-stage regions among stretches of host operations (the edge gathers and scatter-adds, the
  degree count and its reciprocal). Its run passes through seven boundaries; the buffer contents at each are a fold
  from the launch memory: a host stretch applies its operations, a region replaces its arrays by what its write-backs
  leave. Every weakly fair execution terminates without a fault at the last boundary's contents; here that is read
  off at the result buffer as well as at the arguments, which end as launched.
-/
import proofs.«129721_j74251394613509_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents
    and the arguments as launched. -/
theorem run : θ_run defs (onTc (τ := τ) (main (F := F))) ⟨m, fun _ => 0, ρ⟩ (fun r => ∀ c : Dev nD,
      r.2.mem ((c.tc : Thread nD τ).loc main_v54) = W6 m ρ c (Proc.devRef .tc main_v54)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v54 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelIdeal.ValueRun

end
-- ==== Proof.KernelValue.lean ====
/-
  What the kernel program computes, as one function of its eleven arguments.

  One layer, before its clamp: the dense stage of the neighbour mean of `h` (the aggregate of `h` along the edges
  times the reciprocal clamped in-degree), `h` itself, the two weight matrices and the bias as a row. The program is
  three such layers, the first two clamped below by zero, each fed the previous one's result.

  The three regions' result arrays are read off their closed forms at the contents each is entered with; those
  contents are the host stretches' values of what the previous boundary held; and a region leaves untouched every
  buffer that is not one of its arrays, so the edge rows and the reciprocal column computed before the first region
  are still there for the third.
-/
import proofs.«129721_j74251394613509_1_alg».proof.Proof.Region0
import proofs.«129721_j74251394613509_1_alg».proof.Proof.Region1
import proofs.«129721_j74251394613509_1_alg».proof.Proof.Region2
import proofs.«129721_j74251394613509_1_alg».proof.Proof.KernelNet
import proofs.«129721_j74251394613509_1_alg».proof.Proof.KernelRun

set_option maxRecDepth 16384

noncomputable section

namespace Cert.KernelIdeal.Result

open Cert.KernelIdeal Cert.KernelIdeal.Gen Cert.KernelIdeal.Net Cert.Sage
open Idealize.ShloMosaic Idealize.ShloMosaic.TcCoe Idealize.SL.Sem

/-- One layer before its clamp. -/
def layerPre (h : FVec Ideal S50000x128 .f32) (E : IVec S2x800000 32) (Wl : FVec Ideal S128x128 .f32) (bl : FVec Ideal S128 .f32)
    (Wr : FVec Ideal S128x128 .f32) : FVec Ideal S50000x128 .f32 :=
  dense (meanOf h (edgeRow0 E) (edgeRow1 E) (recipCol (edgeRow1 E))) h Wl (biasRow bl) Wr

/-- The three layers. -/
def net (x0 : FVec Ideal S50000x128 .f32) (x1 : IVec S2x800000 32) (x2 : FVec Ideal S128x128 .f32) (x3 : FVec Ideal S128 .f32) (x4 x5 : FVec Ideal S128x128 .f32)
    (x6 : FVec Ideal S128 .f32) (x7 x8 : FVec Ideal S128x128 .f32) (x9 : FVec Ideal S128 .f32) (x10 : FVec Ideal S128x128 .f32) : FVec Ideal S50000x128 .f32 :=
  layerPre (relu (layerPre (relu (layerPre x0 x1 x2 x3 x4)) x1 x5 x6 x7)) x1 x8 x9 x10

variable (m : (ℓ : Loc nD τ sig) → Buf (Elt Ideal) ℓ) (ρ : Dev nD → PrngReg)

/-- The first region's result: the first layer of the arguments. -/
theorem first (c : Dev nD) : W2 m ρ c (Proc.devRef .tc main_v26)
    = relu (layerPre (m ((c : Thread nD τ).loc main_arg0)) (m ((c : Thread nD τ).loc main_arg1)) (m ((c : Thread nD τ).loc main_arg2)) (m ((c : Thread nD τ).loc main_arg3)) (m ((c : Thread nD τ).loc main_arg4))) := by
  refine (W2_arr m ρ c 5).trans ?_
  refine (Region0.array_eq (V1 m ρ) c).trans ?_
  show relu (dense (W1 m ρ c (Proc.devRef .tc main_v24)) (W1 m ρ c (Proc.devRef .tc main_arg0)) (W1 m ρ c (Proc.devRef .tc main_arg2)) (W1 m ρ c (Proc.devRef .tc main_v25)) (W1 m ρ c (Proc.devRef .tc main_arg4))) = _
  rw [W1_v24, W1_arg0, W1_arg2, W1_v25, W1_arg4]
  rfl

/-- The second region's result: the second layer of the first region's result. -/
theorem second (c : Dev nD) : W4 m ρ c (Proc.devRef .tc main_v40)
    = relu (layerPre (W2 m ρ c (Proc.devRef .tc main_v26)) (m ((c : Thread nD τ).loc main_arg1)) (m ((c : Thread nD τ).loc main_arg5)) (m ((c : Thread nD τ).loc main_arg6)) (m ((c : Thread nD τ).loc main_arg7))) := by
  refine (W4_arr m ρ c 5).trans ?_
  refine (Region1.array_eq (V3 m ρ) c).trans ?_
  show relu (dense (W3 m ρ c (Proc.devRef .tc main_v38)) (W3 m ρ c (Proc.devRef .tc main_v26)) (W3 m ρ c (Proc.devRef .tc main_arg5)) (W3 m ρ c (Proc.devRef .tc main_v39)) (W3 m ρ c (Proc.devRef .tc main_arg7))) = _
  rw [W3_v38, W3_keep_main_v26, W3_keep_main_arg5, W3_v39, W3_keep_main_arg7,
    W2_keep_main_v1, W2_keep_main_v3, W2_keep_main_v12, W2_keep_main_arg5, W2_keep_main_arg6, W2_keep_main_arg7,
    W1_v1, W1_v3, W1_v12, W1_arg5, W1_arg6, W1_arg7]
  rfl

/-- The third region's result: the third layer, unclamped, of the second region's result. -/
theorem third (c : Dev nD) : W6 m ρ c (Proc.devRef .tc main_v54)
    = layerPre (W4 m ρ c (Proc.devRef .tc main_v40)) (m ((c : Thread nD τ).loc main_arg1)) (m ((c : Thread nD τ).loc main_arg8)) (m ((c : Thread nD τ).loc main_arg9)) (m ((c : Thread nD τ).loc main_arg10)) := by
  refine (W6_arr m ρ c 5).trans ?_
  refine (Region2.array_eq (V5 m ρ) c).trans ?_
  show dense (W5 m ρ c (Proc.devRef .tc main_v52)) (W5 m ρ c (Proc.devRef .tc main_v40)) (W5 m ρ c (Proc.devRef .tc main_arg8)) (W5 m ρ c (Proc.devRef .tc main_v53)) (W5 m ρ c (Proc.devRef .tc main_arg10)) = _
  rw [W5_v52, W5_keep_main_v40, W5_keep_main_arg8, W5_v53, W5_keep_main_arg10,
    W4_keep_main_v1, W4_keep_main_v3, W4_keep_main_v12, W4_keep_main_arg8, W4_keep_main_arg9, W4_keep_main_arg10,
    W3_keep_main_v1, W3_keep_main_v3, W3_keep_main_v12, W3_keep_main_arg8, W3_keep_main_arg9, W3_keep_main_arg10,
    W2_keep_main_v1, W2_keep_main_v3, W2_keep_main_v12, W2_keep_main_arg8, W2_keep_main_arg9, W2_keep_main_arg10,
    W1_v1, W1_v3, W1_v12, W1_arg8, W1_arg9, W1_arg10]
  rfl

/-- The result buffer at the last boundary is the three layers of the arguments. -/
theorem result_eq (c : Dev nD) : W6 m ρ c (Proc.devRef .tc main_v54)
    = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [third, second, first]
  rfl

/-- The run, with the result at the three layers of the arguments and the arguments as launched. -/
theorem run : θ_run defs (onTc (τ := τ) (main (F := Ideal))) ⟨m, fun _ => 0, ρ⟩ (fun r => ∀ c : Dev nD,
      r.2.mem ((c.tc : Thread nD τ).loc main_v54) = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (result_eq m ρ c), (h c).2⟩) (ValueRun.run m ρ)

end Cert.KernelIdeal.Result

end
-- ==== Proof.LibMeanLaw.lean ====
/-
  A general fact about means by a clamped count, over the extended reals: multiplying by the reciprocal of
  `max n 1` is dividing by `max n 1`. It separates a program that forms `1 / max n 1` once and multiplies from one that
  divides each time.

  For a node with aggregated feature `a` and in-degree count `n`, both programs normalise by the clamped
  count `c = max n 1`. One forms the reciprocal `1 / c` once and multiplies every layer's aggregate by it;
  the other divides each aggregate by `c`. On the extended reals `x / y` is `x · y⁻¹` whenever `y ≠ 0`, and
  `c ≥ 1` is never `0`; so `a · (1 / c) = a · (1 · c⁻¹) = a · c⁻¹ = a / c` for every extended real `a` and every
  count, finite or not. No finiteness of the inputs is used.
-/
import Idealize.ShloMosaic.PureOps.Ideal

noncomputable section

namespace Cert.MeanLaw

open Idealize.ShloMosaic

/-- The word `0x3F800000` is the binary32 pattern of the number one. -/
theorem word_one : Ideal.ofBits .f32 0x3F800000#32 = 1 := by
  simp [Ideal.ofBits, Ideal.ieee, -EReal.coe_mul]; norm_num

/-- A count clamped below by one is not zero. -/
theorem clamp_ne_zero (n : EReal) : max n 1 ≠ 0 :=
  ne_of_gt (lt_of_lt_of_le zero_lt_one (le_max_right n 1))

/-- Multiplying by the reciprocal of a clamped count is dividing by the clamped count. -/
theorem mul_recip_clamp (a n : EReal) : a * Ideal.div 1 (max n 1) = Ideal.div a (max n 1) := by
  unfold Ideal.div
  rw [if_neg (clamp_ne_zero n), if_neg (clamp_ne_zero n), one_mul]

end Cert.MeanLaw

end
-- ==== Proof.Bridge.lean ====
/-
  The reference computes the same three layers.

  A reference layer divides the aggregate of `h` along the edges by the clamped in-degree (broadcast along the
  features), multiplies by one weight matrix, adds the bias, and adds `h` times the other weight matrix; the first
  two layers are clamped below by zero. Entry by entry this is the kernel's layer:

  * the neighbour mean: `a · (1 / c) = a / c` for a clamped count `c = max n 1`, which is never zero;
  * a matrix product read at an entry is the sum over the contracted index, for a block as for the whole array;
  * the bias as a row broadcast down the nodes, or as a vector broadcast to a row and then down, reads `b[q]` at `(r, q)`;
  * `(s₁ + s₂) + b = (s₁ + b) + s₂`: addition of extended reals is commutative and associative, infinities or not.

  The gather and the scatter-add are the same functions of the same operands on both sides and are not opened.
-/
import proofs.«129721_j74251394613509_1_alg».proof.Proof.KernelValue
import proofs.«129721_j74251394613509_1_alg».proof.Proof.LibMeanLaw
import proofs.«129721_j74251394613509_1_alg».proof.Proof.Gen.ReferenceIdeal.Read
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

set_option maxRecDepth 16384

noncomputable section

namespace Cert.ReferenceIdeal.Bridge

open Cert.ReferenceIdeal Cert.ReferenceIdeal.Gen Cert.Sage
open Cert.KernelIdeal.Net Cert.KernelIdeal.Result
open Idealize.ShloMosaic Idealize.ShloMosaic.ValueIdx
open scoped BigOperators

/-! ## Layout operations read at an entry -/

/-- A column broadcast along the features reads the column. -/
theorem colBcast_at (hb : S50000x1.BroadcastsInDim S50000x128 (![0, 1] : Fin 2 → Fin S50000x128.rank)) (x : FVec Ideal S50000x1 .f32)
    (r : Fin 50000) (k : Fin 128) : broadcastInDim S50000x128 ![0, 1] hb x (ix2 r k) = x (ix2 r (0 : Fin 1)) :=
  broadcastInDim_apply _ hb x (ix2 r k) (ix2 r (0 : Fin 1)) fun a => by
    match a with
    | ⟨0, _⟩ => rfl
    | ⟨1, _⟩ => rfl

/-- A vector laid out as a column reads the vector. -/
theorem colOf_at (hb : S50000.BroadcastsInDim S50000x1 (![0] : Fin 1 → Fin S50000x1.rank)) (x : FVec Ideal S50000 .f32)
    (r : Fin 50000) : broadcastInDim S50000x1 ![0] hb x (ix2 r (0 : Fin 1)) = x (ix1 r) :=
  broadcastInDim_apply _ hb x (ix2 r (0 : Fin 1)) (ix1 r) fun a => by
    match a with
    | ⟨0, _⟩ => rfl

/-- The same column by a reshape. -/
theorem colCast_at (hc : S50000.ShapeCasts S50000x1) (x : FVec Ideal S50000 .f32) (r : Fin 50000) :
    shapeCast S50000x1 x hc (ix2 r (0 : Fin 1)) = x (ix1 r) :=
  shapeCast_apply x hc _ _ (by
    rw [Shape.rowMajor_val_two, Shape.rowMajor_val_one]
    show r.val = r.val * 1 + 0
    omega)

/-- A bias vector broadcast to a row and then down the nodes reads the vector at the feature. -/
theorem biasBcast_at (h1 : S128.BroadcastsInDim S1x128 (![1] : Fin 1 → Fin S1x128.rank))
    (h2 : S1x128.BroadcastsInDim S50000x128 (![0, 1] : Fin 2 → Fin S50000x128.rank)) (b : FVec Ideal S128 .f32) (r : Fin 50000) (q : Fin 128) :
    broadcastInDim S50000x128 ![0, 1] h2 (broadcastInDim S1x128 ![1] h1 b) (ix2 r q) = b (ix1 q) := by
  refine (broadcastInDim_apply _ h2 _ (ix2 r q) (ix2 (0 : Fin 1) q) fun a => ?_).trans ?_
  · match a with
    | ⟨0, _⟩ => rfl
    | ⟨1, _⟩ => rfl
  · exact broadcastInDim_apply _ h1 b (ix2 (0 : Fin 1) q) (ix1 q) fun a => by
      match a with
      | ⟨0, _⟩ => rfl

/-- The whole arrays' matrix product read at an entry: `Σ_k l[r,k] · w[k,q]`. -/
theorem wholeDot_at (l : FVec Ideal S50000x128 .f32) (w : FVec Ideal S128x128 .f32) (r : Fin 50000) (q : Fin 128) :
    Host.dotGeneral dot_S50000x128_S128x128_S50000x128_1_0_0_1_n_n none l w (ix2 r q) = ∑ k : Fin 128, l (ix2 r k) * w (ix2 k q) := by
  simp only [Host.dotGeneral]
  rw [Ideal.dotGeneral_apply, ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx (ix2 r q) ((contrEquiv1 dot_S50000x128_S128x128_S50000x128_1_0_0_1_n_n 128 rfl rfl).symm k) = ix2 r k := funext fun a => Fin.ext (by
    match a with
    | ⟨0, _⟩ => exact Read.lhs_main_v23_0 _ _
    | ⟨1, _⟩ => exact (Read.lhs_main_v23_1 _ _).trans hk)
  have er : dot_S50000x128_S128x128_S50000x128_1_0_0_1_n_n.rhsIdx (ix2 r q) ((contrEquiv1 dot_S50000x128_S128x128_S50000x128_1_0_0_1_n_n 128 rfl rfl).symm k) = ix2 k q := funext fun a => Fin.ext (by
    match a with
    | ⟨0, _⟩ => exact (Read.rhs_main_v23_0 _ _).trans hk
    | ⟨1, _⟩ => exact Read.rhs_main_v23_1 _ _)
  rw [el, er]

/-! ## The reference's layer, over the same aggregate and count -/

/-- A reference layer before its clamp. -/
def refLayer (h : FVec Ideal S50000x128 .f32) (E : IVec S2x800000 32) (Wl : FVec Ideal S128x128 .f32) (bl : FVec Ideal S128 .f32)
    (Wr : FVec Ideal S128x128 .f32) : FVec Ideal S50000x128 .f32 :=
  addf (addf (Host.dotGeneral dot_S50000x128_S128x128_S50000x128_1_0_0_1_n_n none
      (Host.divf (aggregate h (edgeRow0 E) (edgeRow1 E))
        (broadcastInDim S50000x128 ![0, 1] bcast_S50000x1_S50000x128_0_1 (broadcastInDim S50000x1 ![0] bcast_S50000_S50000x1_0 (clampedCount (edgeRow1 E))))) Wl)
    (broadcastInDim S50000x128 ![0, 1] bcast_S1x128_S50000x128_0_1 (broadcastInDim S1x128 ![1] bcast_S128_S1x128_1 bl)))
    (Host.dotGeneral dot_S50000x128_S128x128_S50000x128_1_0_0_1_n_n none h Wr)

/-- The array of zeros the reference clamps against. -/
def zeros : FVec Ideal S50000x128 .f32 := broadcastInDim S50000x128 ![] bcast_S_S50000x128 (constant (F := Ideal) S_ .f32 0x00000000#32)

/-- The neighbour mean formed by a reciprocal is the quotient. -/
theorem mean_eq (h : FVec Ideal S50000x128 .f32) (E : IVec S2x800000 32) :
    meanOf h (edgeRow0 E) (edgeRow1 E) (recipCol (edgeRow1 E))
      = Host.divf (aggregate h (edgeRow0 E) (edgeRow1 E))
          (broadcastInDim S50000x128 ![0, 1] bcast_S50000x1_S50000x128_0_1 (broadcastInDim S50000x1 ![0] bcast_S50000_S50000x1_0 (clampedCount (edgeRow1 E)))) := by
  funext j
  obtain ⟨r, k, rfl⟩ : ∃ (r : Fin 50000) (k : Fin 128), j = ix2 r k := ⟨j 0, j 1, eq_ix2 j⟩
  unfold meanOf
  rw [mulf_apply, hostDivf_apply, colBcast_at, colBcast_at, colOf_at]
  unfold recipCol
  rw [colCast_at, hostDivf_apply]
  unfold clampedCount
  rw [maximumf_apply, broadcastInDim_scalar_apply, constant_apply, Cert.MeanLaw.word_one]
  exact Cert.MeanLaw.mul_recip_clamp _ _

/-- A kernel layer is a reference layer. -/
theorem layer_eq (h : FVec Ideal S50000x128 .f32) (E : IVec S2x800000 32) (Wl : FVec Ideal S128x128 .f32) (bl : FVec Ideal S128 .f32)
    (Wr : FVec Ideal S128x128 .f32) : layerPre h E Wl bl Wr = refLayer h E Wl bl Wr := by
  funext j
  obtain ⟨r, q, rfl⟩ : ∃ (r : Fin 50000) (q : Fin 128), j = ix2 r q := ⟨j 0, j 1, eq_ix2 j⟩
  unfold layerPre refLayer
  rw [mean_eq, dense_ix2]
  unfold denseAt biasRow
  rw [addf_apply, addf_apply, wholeDot_at, wholeDot_at, biasBcast_at, shapeCast_a_1a_apply]
  exact add_right_comm _ _ _

/-- Clamping against the zeros array is the clamp. -/
theorem clamp_eq (x : FVec Ideal S50000x128 .f32) : maximumf x zeros = relu x := by
  funext j
  unfold zeros
  rw [maximumf_apply, broadcastInDim_scalar_apply, constant_apply, Ideal.ofBits_zero_f32]
  rfl

/-! ## The reference's stages are these layers -/

set_option maxHeartbeats 400000 in
theorem stage29 (x0 : FVec Ideal S50000x128 .f32) (x1 : IVec S2x800000 32) (x2 : FVec Ideal S128x128 .f32) (x3 : FVec Ideal S128 .f32) (x4 : FVec Ideal S128x128 .f32) :
    Read.val_main_v29 (F := Ideal) x0 x1 x2 x3 x4 = maximumf (refLayer x0 x1 x2 x3 x4) zeros := rfl

set_option maxHeartbeats 400000 in
theorem stage55 (x0 : FVec Ideal S50000x128 .f32) (x1 : IVec S2x800000 32) (x2 : FVec Ideal S128x128 .f32) (x3 : FVec Ideal S128 .f32) (x4 x5 : FVec Ideal S128x128 .f32) (x6 : FVec Ideal S128 .f32) (x7 : FVec Ideal S128x128 .f32) :
    Read.val_main_v55 (F := Ideal) x0 x1 x2 x3 x4 x5 x6 x7
      = maximumf (refLayer (Read.val_main_v29 (F := Ideal) x0 x1 x2 x3 x4) x1 x5 x6 x7) zeros := rfl

set_option maxHeartbeats 400000 in
theorem stage80 (x0 : FVec Ideal S50000x128 .f32) (x1 : IVec S2x800000 32) (x2 : FVec Ideal S128x128 .f32) (x3 : FVec Ideal S128 .f32) (x4 x5 : FVec Ideal S128x128 .f32) (x6 : FVec Ideal S128 .f32) (x7 x8 : FVec Ideal S128x128 .f32) (x9 : FVec Ideal S128 .f32) (x10 : FVec Ideal S128x128 .f32) :
    Read.val_main_v80 (F := Ideal) x0 x1 x2 x3 x4 x5 x6 x7 x8 x9 x10
      = refLayer (Read.val_main_v55 (F := Ideal) x0 x1 x2 x3 x4 x5 x6 x7) x1 x8 x9 x10 := rfl

/-- The reference's result is the kernel's three layers of the same arguments. -/
theorem ref_eq_net (x0 : FVec Ideal S50000x128 .f32) (x1 : IVec S2x800000 32) (x2 : FVec Ideal S128x128 .f32) (x3 : FVec Ideal S128 .f32) (x4 x5 : FVec Ideal S128x128 .f32) (x6 : FVec Ideal S128 .f32) (x7 x8 : FVec Ideal S128x128 .f32) (x9 : FVec Ideal S128 .f32) (x10 : FVec Ideal S128x128 .f32) :
    Read.val_main_v80 (F := Ideal) x0 x1 x2 x3 x4 x5 x6 x7 x8 x9 x10 = net x0 x1 x2 x3 x4 x5 x6 x7 x8 x9 x10 := by
  rw [stage80, stage55, stage29, clamp_eq, clamp_eq, ← layer_eq, ← layer_eq, ← layer_eq]
  rfl

end Cert.ReferenceIdeal.Bridge

end
-- ==== Proof.lean ====
/-
  A three-layer GraphSAGE network with mean aggregation, its dense stages tiled over ten row blocks, computes the
  same extended reals as the plain reference.

  Per layer both programs gather the source node's features along the 800000 edges and scatter-add them at the
  destinations (the same host operations on both sides), normalise by the in-degree clamped below by one, and apply
  `mean · Wl + h · Wr + b`, clamped below by zero in the first two layers. They differ in three ways, none of which
  changes an exact value:

  * the kernel forms `1 / c` once and multiplies, the reference divides by `c`: equal because `c = max n 1` is never
    zero (Proof/LibMeanLaw.lean);
  * the kernel computes the dense stage block by block, 5000 rows at a grid point, narrowing its operands to bf16 (the
    identity on exact values) and accumulating each product into zero; the reference multiplies the whole arrays: an
    output entry depends on its own row only, and the blocks tile the rows (Proof/Payload.lean, Proof/Region0–2.lean);
  * the kernel adds the bias last, the reference adds it between the two products: addition of extended reals is
    commutative and associative (Proof/Bridge.lean).

  No finiteness of the inputs is needed, so the precondition is never opened. The kernel program's run is read at its
  result buffer in Proof/KernelRun.lean and Proof/KernelValue.lean; the reference's run and its stages are the
  generated modules.
-/
import proofs.«129721_j74251394613509_1_alg».proof.Defs
import proofs.«129721_j74251394613509_1_alg».proof.Proof.Gen.Kernel
import proofs.«129721_j74251394613509_1_alg».proof.Proof.Gen.Kernel.Skeleton
import proofs.«129721_j74251394613509_1_alg».proof.Proof.Gen.Kernel.Launch
import proofs.«129721_j74251394613509_1_alg».proof.Proof.Gen.Kernel.Points
import proofs.«129721_j74251394613509_1_alg».proof.Proof.Gen.Kernel.Frame
import proofs.«129721_j74251394613509_1_alg».proof.Proof.Gen.KernelIdeal
import proofs.«129721_j74251394613509_1_alg».proof.Proof.Gen.KernelIdeal.Skeleton
import proofs.«129721_j74251394613509_1_alg».proof.Proof.Gen.KernelIdeal.Launch
import proofs.«129721_j74251394613509_1_alg».proof.Proof.Gen.KernelIdeal.Points
import proofs.«129721_j74251394613509_1_alg».proof.Proof.Gen.KernelIdeal.Frame
import proofs.«129721_j74251394613509_1_alg».proof.Proof.Gen.ReferenceIdeal
import proofs.«129721_j74251394613509_1_alg».proof.Proof.Gen.Pre_finite_inputs
import proofs.«129721_j74251394613509_1_alg».proof.Proof.Gen.ReferenceIdeal.Run
import proofs.«129721_j74251394613509_1_alg».proof.Proof.Gen.ReferenceIdeal.Read
import proofs.«129721_j74251394613509_1_alg».proof.Proof.KernelValue
import proofs.«129721_j74251394613509_1_alg».proof.Proof.Bridge
import Idealize.ShloMosaic.Adequacy
import Idealize.ShloMosaic.Init

noncomputable section

namespace Cert.Proof

open Idealize.ShloMosaic Idealize.SL.Sem

/-- The word-level kernel program terminates without a fault and leaves its arguments as launched. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the three layers of those arguments. -/
theorem algebraic : Cert.algebraic_KernelIdeal_ReferenceIdeal := by
  intro m ρ m' ρ' _ hagree
  refine ⟨fun c => Cert.KernelIdeal.Result.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10⟩ := hagree c
  rw [Cert.ReferenceIdeal.Read.val_main_v80_eq, Cert.ReferenceIdeal.Bridge.ref_eq_net, e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
